-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S128x256 : Shape := ⟨2, ![128, 256]⟩
abbrev S128 : Shape := ⟨1, ![128]⟩
abbrev S65 : Shape := ⟨1, ![65]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S65536x256 .f32) (main_arg1 : FVec F S128x256 .f32) (main_arg2 : FVec F S128 .f32) (main_arg3 : IVec S65 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S65536x256 : Shape := ⟨2, ![65536, 256]⟩
abbrev S128x256 : Shape := ⟨2, ![128, 256]⟩
abbrev S128 : Shape := ⟨1, ![128]⟩
abbrev S65 : Shape := ⟨1, ![65]⟩
abbrev S1x128 : Shape := ⟨2, ![1, 128]⟩
abbrev S64x1024x1024 : Shape := ⟨3, ![64, 1024, 1024]⟩
abbrev S1024x256 : Shape := ⟨2, ![1024, 256]⟩
abbrev S1x1024x1024 : Shape := ⟨3, ![1, 1024, 1024]⟩
abbrev S1024x128 : Shape := ⟨2, ![1024, 128]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S128x256, .f32⟩
  | .hbm, ⟨2, _⟩ => ⟨S128, .f32⟩
  | .hbm, ⟨3, _⟩ => ⟨S65, .i32⟩
  | .hbm, ⟨4, _⟩ => ⟨S1x128, .f32⟩
  | .hbm, ⟨5, _⟩ => ⟨S64x1024x1024, .f32⟩
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S1x128, .f32⟩
  | .local _ .vmem, ⟨4, _⟩ => ⟨S1x1024x1024, .f32⟩
  | .local _ .vmem, ⟨5, _⟩ => ⟨S1x1024x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x256_S128x256_S1024x128_1_1_0_0_n_n_wf : DotDims.WF S1024x256 S128x256 S1024x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .f32 = 32 ∨ (Rect.block (s := S64x1024x1024) S1x1024x1024.size (cc0_transform_3 i) (hinb0_3 i)).WholeWords (EltTy.packing .f32)

variable [Facts₀]

def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S128x256 : Shape := ⟨2, ![128, 256]⟩
abbrev S128 : Shape := ⟨1, ![128]⟩
abbrev S65 : Shape := ⟨1, ![65]⟩
abbrev S256x128 : Shape := ⟨2, ![256, 128]⟩
abbrev S65536x128 : Shape := ⟨2, ![65536, 128]⟩
abbrev S1x128 : Shape := ⟨2, ![1, 128]⟩
abbrev S64x1024x128 : Shape := ⟨3, ![64, 1024, 128]⟩
abbrev S64x1024x1024 : Shape := ⟨3, ![64, 1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S128x256, .f32⟩
  | .hbm, ⟨2, _⟩ => ⟨S128, .f32⟩
  | .hbm, ⟨3, _⟩ => ⟨S65, .i32⟩
  | .hbm, ⟨4, _⟩ => ⟨S256x128, .f32⟩
  | .hbm, ⟨5, _⟩ => ⟨S65536x128, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S64x1024x128, .f32⟩
  | .hbm, ⟨10, _⟩ => ⟨S64x1024x1024, .f32⟩
  | .hbm, ⟨11, _⟩ => ⟨S64x1024x1024, .f32⟩
  | .hbm, ⟨12, _⟩ => ⟨S64x1024x1024, .f32⟩
  | .hbm, ⟨13, _⟩ => ⟨S_, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S64x1024x1024, .f32⟩
  | .hbm, ⟨18, _⟩ => ⟨S64x1024x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S64x1024x128 : S65536x128.ShapeCasts S64x1024x128
  bcast_S_S64x1024x1024 : S_.BroadcastsInDim S64x1024x1024 (![] : Fin 0 → Fin S64x1024x1024.rank)
  dot_S65536x256_S256x128_S65536x128_1_0_0_1_n_n_wf : DotDims.WF S65536x256 S256x128 S65536x128 [1] [0] [0] [1] [] []
  dot_S64x1024x128_S64x1024x128_S64x1024x1024_2_2_1_1_0_0_wf : DotDims.WF S64x1024x128 S64x1024x128 S64x1024x1024 [2] [2] [1] [1] [0] [0]

variable [Facts₀]

def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S64x1024x128_S64x1024x128_S64x1024x1024_2_2_1_1_0_0 : DotDims S64x1024x128 S64x1024x128 S64x1024x1024 where
  lhsContracting := [2]
  rhsContracting := [2]
  lhsNonContracting := [1]
  rhsNonContracting := [1]
  lhsBatch := [0]
  rhsBatch := [0]
  wf := dot_S64x1024x128_S64x1024x128_S64x1024x1024_2_2_1_1_0_0_wf

class Facts : Prop extends Facts₀ where

variable [Facts]
-- ==== Proof.Adjacency.lean ====
/-
  The function both programs compute, index by index, on the extended reals.

  The input is 64 graphs of 1024 nodes each, stored as one 65536 × 256 array `Z` (node `n` of graph `g` is row
  `1024·g + n`), a 128 × 256 weight `W` and a bias `b` of length 128. Every node gets a hidden vector of length 128,
      hidden(r, h) = (∑ k < 256, Z[r, k] · W[h, k]) + b[h],
  and the result, for graph `g` and its nodes `n`, `n'`, is the logistic function of the inner product of their
  hidden vectors:
      adj[g, n, n'] = logistic (∑ h < 128, hidden(1024·g + n, h) · hidden(1024·g + n', h)),
  where `logistic x = 1 / (1 + e^(-x))` with the extended reals' conventions at the infinities.

  Both programs form these sums in exactly this grouping, so identifying either with `adj` uses no law of arithmetic
  beyond re-indexing, and nothing about the inputs being finite.

  The same function is also stated over ONE graph's data — its 1024 × 256 block of rows and the bias laid out as a
  1 × 128 row — which is what one grid point of the kernel sees; `adjBlock_eq` says the block form at graph `g` is
  `adj` on that graph's slab.
-/
import Idealize.ShloMosaic.PureOps.Ideal
import Idealize.ShloMosaic.Lib.ValueIdx

noncomputable section

namespace Cert.Adjacency

open Idealize.ShloMosaic Idealize.ShloMosaic.ValueIdx
open scoped BigOperators

/-- The row of node `n` of graph `g` in the flat node array: `1024·g + n`. -/
def node (g : Fin 64) (n : Fin 1024) : Fin 65536 :=
  ⟨g.val * 1024 + n.val, by have := g.isLt; have := n.isLt; omega⟩

theorem node_val (g : Fin 64) (n : Fin 1024) : (node g n).val = g.val * 1024 + n.val := rfl

/-- Hidden coordinate `h` of the node stored in row `r`: the row's inner product with row `h` of the weight, plus the
    bias at `h`. -/
def hidden (Z : FVec Ideal ⟨2, ![65536, 256]⟩ .f32) (W : FVec Ideal ⟨2, ![128, 256]⟩ .f32) (b : FVec Ideal ⟨1, ![128]⟩ .f32)
    (r : Fin 65536) (h : Fin 128) : EReal :=
  (∑ k : Fin 256, Z (ix2 r k) * W (ix2 h k)) + b (ix1 h)

/-- The result array: at `(g, n, n')` the logistic function of the inner product of the hidden vectors of nodes `n` and
    `n'` of graph `g`. -/
def adj (Z : FVec Ideal ⟨2, ![65536, 256]⟩ .f32) (W : FVec Ideal ⟨2, ![128, 256]⟩ .f32) (b : FVec Ideal ⟨1, ![128]⟩ .f32) :
    FVec Ideal ⟨3, ![64, 1024, 1024]⟩ .f32 := fun i =>
  Ideal.logistic (∑ h : Fin 128, hidden Z W b (node (i 0) (i 1)) h * hidden Z W b (node (i 0) (i 2)) h)

theorem adj_apply (Z : FVec Ideal ⟨2, ![65536, 256]⟩ .f32) (W : FVec Ideal ⟨2, ![128, 256]⟩ .f32) (b : FVec Ideal ⟨1, ![128]⟩ .f32)
    (g : Fin 64) (n n' : Fin 1024) :
    adj Z W b (ix3 g n n') = Ideal.logistic (∑ h : Fin 128, hidden Z W b (node g n) h * hidden Z W b (node g n') h) := rfl

/-! ## One graph at a time -/

/-- Hidden coordinate `h` of local node `p`, from one graph's block of rows `X` and the bias as a 1 × 128 row `B`. -/
def hiddenBlock (X : FVec Ideal ⟨2, ![1024, 256]⟩ .f32) (W : FVec Ideal ⟨2, ![128, 256]⟩ .f32) (B : FVec Ideal ⟨2, ![1, 128]⟩ .f32)
    (p : Fin 1024) (h : Fin 128) : EReal :=
  (∑ k : Fin 256, X (ix2 p k) * W (ix2 h k)) + B (ix2 (0 : Fin 1) h)

/-- One graph's 1024 × 1024 result from its block of rows. -/
def adjBlock (X : FVec Ideal ⟨2, ![1024, 256]⟩ .f32) (W : FVec Ideal ⟨2, ![128, 256]⟩ .f32) (B : FVec Ideal ⟨2, ![1, 128]⟩ .f32)
    (p q : Fin 1024) : EReal :=
  Ideal.logistic (∑ h : Fin 128, hiddenBlock X W B p h * hiddenBlock X W B q h)

/-- When `X` is graph `g`'s rows of `Z`, `W'` reads as `W` and `B` is `b` as a row, the block form is `adj` on graph
    `g`'s slab. -/
theorem adjBlock_eq (Z : FVec Ideal ⟨2, ![65536, 256]⟩ .f32) (W : FVec Ideal ⟨2, ![128, 256]⟩ .f32) (b : FVec Ideal ⟨1, ![128]⟩ .f32)
    (X : FVec Ideal ⟨2, ![1024, 256]⟩ .f32) (W' : FVec Ideal ⟨2, ![128, 256]⟩ .f32) (B : FVec Ideal ⟨2, ![1, 128]⟩ .f32) (g : Fin 64)
    (hX : ∀ (p : Fin 1024) (k : Fin 256), X (ix2 p k) = Z (ix2 (node g p) k))
    (hW : ∀ (h : Fin 128) (k : Fin 256), W' (ix2 h k) = W (ix2 h k))
    (hB : ∀ h : Fin 128, B (ix2 (0 : Fin 1) h) = b (ix1 h)) (p q : Fin 1024) :
    adjBlock X W' B p q = adj Z W b (ix3 g p q) := by
  rw [adj_apply]
  unfold adjBlock hiddenBlock hidden
  simp only [hX, hW, hB]

end Cert.Adjacency

end
-- ==== Proof.ReferenceAdjacency.lean ====
/-
  The reference computes `Cert.Adjacency.adj`.

  The reference multiplies the whole node array by the transposed weight (a 65536 × 128 product, contracting the 256
  input features), adds the bias broadcast along the rows, regroups the rows as 64 graphs of 1024 nodes (row
  `1024·g + n` becomes `(g, n)`: a reshape keeps the row-major position), takes for each graph the product of that
  slab with its own transpose (contracting the 128 hidden coordinates) and applies `1 / (1 + e^(-x))` written out as
  negate, exponential, add one, divide into one. Read index by index through the generated stage lemmas this is `adj`:
  the only arithmetic is the division and remainder by 128 that undo the reshape, and the literal `1.0` being the
  number one.
-/
import proofs.«139481_j34978213659346_1_alg».proof.Proof.Gen.ReferenceIdeal.Read
import proofs.«139481_j34978213659346_1_alg».proof.Proof.Adjacency
import Idealize.ShloMosaic.PureOps.IdealRules

noncomputable section

namespace Cert.ReferenceIdeal.AdjValue

open Cert.ReferenceIdeal Cert.ReferenceIdeal.Read Cert.Adjacency
open Idealize.ShloMosaic Idealize.ShloMosaic.ValueIdx
open scoped BigOperators

/-- The f32 pattern of `1.0` is the number one. -/
theorem one_f32 : Ideal.ofBits .f32 0x3F800000#32 = 1 := IdealRules.sign_bit.ideal_onePat .f32

/-- The regrouped hidden array at `(g, n, h)` is hidden coordinate `h` of row `1024·g + n`. -/
theorem hidden_apply (x0 : FVec Ideal S65536x256 .f32) (x1 : FVec Ideal S128x256 .f32) (x2 : FVec Ideal S128 .f32)
    (g : Fin 64) (n : Fin 1024) (h : Fin 128) :
    val_main_v5 (F := Ideal) x0 x1 x2 (ix3 g n h) = hidden x0 x1 x2 (node g n) h := by
  have hg := g.isLt; have hn := n.isLt; have hh := h.isLt
  rw [val_main_v5_apply, val_main_v4_apply, val_main_v1_apply, val_main_v3_apply, val_main_v2_apply]
  have eb : idx_main_v2 (idx_main_v3 (idx_main_v5 (ix3 g n h))) = ix1 h := funext fun a => Fin.ext (by
    match a with
    | ⟨0, _⟩ => show ((g.val * 1024 + n.val) * 128 + h.val) % 128 = h.val; omega)
  have el : ∀ k : Fin 256, lidx_main_v1 (idx_main_v5 (ix3 g n h)) k = ix2 (node g n) k := fun k => funext fun a => Fin.ext (by
    match a with
    | ⟨0, _⟩ => show ((g.val * 1024 + n.val) * 128 + h.val) / 128 = g.val * 1024 + n.val; omega
    | ⟨1, _⟩ => rfl)
  have er : ∀ k : Fin 256, idx_main_v0 (ridx_main_v1 (idx_main_v5 (ix3 g n h)) k) = ix2 h k := fun k => funext fun a => Fin.ext (by
    match a with
    | ⟨0, _⟩ => show ((g.val * 1024 + n.val) * 128 + h.val) % 128 = h.val; omega
    | ⟨1, _⟩ => rfl)
  simp only [val_main_v0_apply, el, er, eb]
  rfl

/-- The reference's result is `adj` of its three float arguments. -/
theorem result_eq (x0 : FVec Ideal S65536x256 .f32) (x1 : FVec Ideal S128x256 .f32) (x2 : FVec Ideal S128 .f32) :
    val_main_v12 (F := Ideal) x0 x1 x2 = adj x0 x1 x2 := by
  funext i
  obtain ⟨g, n, n', rfl⟩ : ∃ (g : Fin 64) (n n' : Fin 1024), i = ix3 g n n' := ⟨i 0, i 1, i 2, eq_ix3 i⟩
  rw [val_main_v12_apply, val_main_v11_apply, val_main_cst_0_apply, val_main_v10_apply, val_main_v9_apply,
    val_main_cst_apply, val_main_v8_apply, val_main_v7_apply, val_main_v6_apply, adj_apply]
  have el : ∀ k : Fin 128, lidx_main_v6 (ix3 g n n') k = ix3 g n k := fun k => funext fun a => Fin.ext (by
    match a with
    | ⟨0, _⟩ => rfl
    | ⟨1, _⟩ => rfl
    | ⟨2, _⟩ => rfl)
  have er : ∀ k : Fin 128, ridx_main_v6 (ix3 g n n') k = ix3 g n' k := fun k => funext fun a => Fin.ext (by
    match a with
    | ⟨0, _⟩ => rfl
    | ⟨1, _⟩ => rfl
    | ⟨2, _⟩ => rfl)
  simp only [el, er, hidden_apply, Ideal.ofBits_def, one_f32]
  rfl

end Cert.ReferenceIdeal.AdjValue

end
-- ==== Proof.BodyValue.lean ====
/-
  What the kernel body stores, at an index, from the three blocks it loads.

  At one grid point the body holds one graph's 1024 × 256 block of rows `X`, the whole 128 × 256 weight `W` and the bias
  as a 1 × 128 row `B`. It multiplies `X` by `W` contracting the 256 input features of both (a matrix product into a zero
  accumulator: just the sum of products), adds the bias row broadcast down the 1024 rows, multiplies the resulting
  1024 × 128 hidden block by itself contracting the 128 hidden coordinates of both, applies the logistic function and
  stores the 1024 × 1024 result with a leading unit axis. The changes of float format in between are the identity on
  the extended reals. So the stored value at `(0, p, q)` is `Cert.Adjacency.adjBlock X W B p q`.
-/
import proofs.«139481_j34978213659346_1_alg».proof.Proof.Gen.KernelIdeal.Skeleton
import proofs.«139481_j34978213659346_1_alg».proof.Proof.Adjacency
import Idealize.ShloMosaic.Lib.Pipeline.Value
import Idealize.ShloMosaic.Lib.ValueIdx
import Idealize.ShloMosaic.PureOps.Ideal.Laws

noncomputable section

namespace Cert.KernelIdeal.AdjValue

open Cert.KernelIdeal Cert.KernelIdeal.Gen Cert.Adjacency
open Idealize.ShloMosaic Idealize.ShloMosaic.ValueIdx
open scoped BigOperators

/-! ## The first product: rows of the block against rows of the weight -/

theorem lin_lhs_0 (i : S1024x128.Idx) (q : dot_S1024x256_S128x256_S1024x128_1_1_0_0_n_n.contr.Idx) :
    (dot_S1024x256_S128x256_S1024x128_1_1_0_0_n_n.lhsIdx i q 0).val = (i 0).val := by
  unfold DotDims.lhsIdx
  rw [dif_neg (show ¬(0 : Fin S1024x256.rank) ∈ dot_S1024x256_S128x256_S1024x128_1_1_0_0_n_n.lhsBatch by decide),
    dif_pos (show (0 : Fin S1024x256.rank) ∈ dot_S1024x256_S128x256_S1024x128_1_1_0_0_n_n.lhsNonContracting by decide)]
  rfl
theorem lin_lhs_1 (i : S1024x128.Idx) (q : dot_S1024x256_S128x256_S1024x128_1_1_0_0_n_n.contr.Idx) :
    (dot_S1024x256_S128x256_S1024x128_1_1_0_0_n_n.lhsIdx i q 1).val = (q ⟨0, by decide⟩).val :=
  dot_S1024x256_S128x256_S1024x128_1_1_0_0_n_n.lhsIdx_val_of_single rfl i q
theorem lin_rhs_0 (i : S1024x128.Idx) (q : dot_S1024x256_S128x256_S1024x128_1_1_0_0_n_n.contr.Idx) :
    (dot_S1024x256_S128x256_S1024x128_1_1_0_0_n_n.rhsIdx i q 0).val = (i 1).val := by
  unfold DotDims.rhsIdx
  rw [dif_neg (show ¬(0 : Fin S128x256.rank) ∈ dot_S1024x256_S128x256_S1024x128_1_1_0_0_n_n.rhsBatch by decide),
    dif_pos (show (0 : Fin S128x256.rank) ∈ dot_S1024x256_S128x256_S1024x128_1_1_0_0_n_n.rhsNonContracting by decide)]
  rfl
theorem lin_rhs_1 (i : S1024x128.Idx) (q : dot_S1024x256_S128x256_S1024x128_1_1_0_0_n_n.contr.Idx) :
    (dot_S1024x256_S128x256_S1024x128_1_1_0_0_n_n.rhsIdx i q 1).val = (q ⟨0, by decide⟩).val :=
  dot_S1024x256_S128x256_S1024x128_1_1_0_0_n_n.rhsIdx_val_of_single rfl i q

/-- The product of a 1024 × 256 block with a 128 × 256 one over the last axis of both, into zeros: entry `(p, h)` is
    the inner product of row `p` of the first with row `h` of the second. -/
theorem linear_apply (l : FVec Ideal S1024x256 .bf16) (r : FVec Ideal S128x256 .bf16) (p : Fin 1024) (h : Fin 128) :
    matmul dot_S1024x256_S128x256_S1024x128_1_1_0_0_n_n none l r (constant (F := Ideal) S1024x128 .f32 0x00000000#32) (ix2 p h)
      = ∑ k : Fin 256, l (ix2 p k) * r (ix2 h k) := by
  simp only [matmul]
  rw [Ideal.matmul_constant_zero_apply, ← Equiv.sum_comp (contrEquiv1 dot_S1024x256_S128x256_S1024x128_1_1_0_0_n_n 256 rfl rfl).symm]
  refine Finset.sum_congr rfl fun k _ => ?_
  have hk := contrEquiv1_symm_val dot_S1024x256_S128x256_S1024x128_1_1_0_0_n_n 256 rfl rfl k
  have el : dot_S1024x256_S128x256_S1024x128_1_1_0_0_n_n.lhsIdx (ix2 p h) ((contrEquiv1 dot_S1024x256_S128x256_S1024x128_1_1_0_0_n_n 256 rfl rfl).symm k) = ix2 p k := funext fun a => Fin.ext (by
    match a with
    | ⟨0, _⟩ => exact lin_lhs_0 _ _
    | ⟨1, _⟩ => exact (lin_lhs_1 _ _).trans hk)
  have er : dot_S1024x256_S128x256_S1024x128_1_1_0_0_n_n.rhsIdx (ix2 p h) ((contrEquiv1 dot_S1024x256_S128x256_S1024x128_1_1_0_0_n_n 256 rfl rfl).symm k) = ix2 h k := funext fun a => Fin.ext (by
    match a with
    | ⟨0, _⟩ => exact lin_rhs_0 _ _
    | ⟨1, _⟩ => exact (lin_rhs_1 _ _).trans hk)
  rw [el, er]

/-! ## The second product: the hidden block against itself -/

theorem gram_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem gram_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem gram_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem gram_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of two 1024 × 128 blocks over the last axis of both, into zeros: entry `(p, q)` is the inner product of
    row `p` of the first with row `q` of the second. -/
theorem gram_apply (l r : FVec Ideal S1024x128 .bf16) (p q : Fin 1024) :
    matmul dot_S1024x128_S1024x128_S1024x1024_1_1_0_0_n_n none l r (constant (F := Ideal) S1024x1024 .f32 0x00000000#32) (ix2 p q)
      = ∑ h : Fin 128, l (ix2 p h) * r (ix2 q h) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact gram_lhs_0 _ _
    | ⟨1, _⟩ => exact (gram_lhs_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact gram_rhs_0 _ _
    | ⟨1, _⟩ => exact (gram_rhs_1 _ _).trans hk)
  rw [el, er]

/-! ## The bias row broadcast down the rows -/

/-- The 1 × 128 bias row, cast to its own shape and broadcast to 1024 × 128, reads the row's entry `h` at every `(p, h)`. -/
theorem bias_apply (B : FVec Ideal S1x128 .f32) (p : Fin 1024) (h : Fin 128) :
    broadcastTo S1024x128 (shapeCast S1x128 B shapeCasts_S1x128_S1x128) broadcasts_S1x128_S1024x128 (ix2 p h)
      = B (ix2 (0 : Fin 1) h) := by
  rw [shapeCast_self]
  exact broadcastTo_apply B broadcasts_S1x128_S1024x128 (ix2 p h) (ix2 (0 : Fin 1) h) (fun a => match a with
    | ⟨0, _⟩ => by show (0 : Nat) = if (1 : Nat) = 1 then 0 else p.val; rw [if_pos rfl]
    | ⟨1, _⟩ => by show h.val = if (128 : Nat) = 1 then 0 else h.val; rw [if_neg (by decide)])

/-! ## The stored value -/

/-- The hidden block the body forms, at `(p, h)`. -/
theorem hidden_apply (X : Vec Ideal S1024x256 .f32) (W : Vec Ideal S128x256 .f32) (B : Vec Ideal S1x128 .f32) (p : Fin 1024) (h : Fin 128) :
    (truncf .bf16 (addf (matmul dot_S1024x256_S128x256_S1024x128_1_1_0_0_n_n none (truncf .bf16 X bitsLt_bf16_f32) (truncf .bf16 W bitsLt_bf16_f32) (constant (F := Ideal) S1024x128 .f32 0x00000000#32))
        (broadcastTo S1024x128 (shapeCast S1x128 B shapeCasts_S1x128_S1x128) broadcasts_S1x128_S1024x128)) bitsLt_bf16_f32
      : FVec Ideal S1024x128 .bf16) (ix2 p h)
      = hiddenBlock X W B p h := by
  show matmul dot_S1024x256_S128x256_S1024x128_1_1_0_0_n_n none (truncf .bf16 X bitsLt_bf16_f32) (truncf .bf16 W bitsLt_bf16_f32) (constant (F := Ideal) S1024x128 .f32 0x00000000#32) (ix2 p h)
      + broadcastTo S1024x128 (shapeCast S1x128 B shapeCasts_S1x128_S1x128) broadcasts_S1x128_S1024x128 (ix2 p h) = _
  rw [linear_apply, bias_apply]
  rfl

/-- THE BODY'S STORE at `(0, p, q)`: the logistic function of the inner product of local nodes `p` and `q`'s hidden
    vectors. -/
theorem payload_apply (X : Vec Ideal S1024x256 .f32) (W : Vec Ideal S128x256 .f32) (B : Vec Ideal S1x128 .f32) (p q : Fin 1024) :
    k0_pay1 (F := Ideal) X W B (ix3 (0 : Fin 1) p q) = adjBlock X W B p q := by
  have hp := p.isLt; have hq := q.isLt
  unfold k0_pay1
  refine (shapeCast_apply _ shapeCasts_S1024x1024_S1x1024x1024 (ix3 (0 : Fin 1) p q) (ix2 p q) ?_).trans ?_
  · rw [Shape.rowMajor_val_two, Shape.rowMajor_val_three]
    show p.val * 1024 + q.val = (0 * 1024 + p.val) * 1024 + q.val
    omega
  · show Ideal.logistic (matmul dot_S1024x128_S1024x128_S1024x1024_1_1_0_0_n_n none _ _ (constant (F := Ideal) S1024x1024 .f32 0x00000000#32) (ix2 p q)) = _
    unfold adjBlock
    refine congrArg Ideal.logistic ?_
    refine (gram_apply _ _ p q).trans ?_
    refine Finset.sum_congr rfl fun h _ => ?_
    rw [hidden_apply X W B p h, hidden_apply X W B q h]

end Cert.KernelIdeal.AdjValue

end
-- ==== Proof.KernelAdjacency.lean ====
/-
  The kernel computes `Cert.Adjacency.adj`.

  The grid has 64 points, one per graph. At point `t` the kernel is handed rows `1024·t … 1024·t + 1023` of the node
  array, the whole weight, and the bias as the 1 × 128 row the host reshaped it into before the call; it writes back slab
  `t` of the 64 × 1024 × 1024 result. What it writes is the body's stored value (`payload_apply`: the block form of
  the adjacency) of those three blocks, which is `adj` of the argument arrays read through slab `t` (`adjBlock_eq`).
  The 64 slabs tile the result array — index `(g, n, n')` lies in the slab of point `g` — so after the run the array
  is `adj` of the arguments everywhere.
-/
import proofs.«139481_j34978213659346_1_alg».proof.Proof.Gen.KernelIdeal.Value
import proofs.«139481_j34978213659346_1_alg».proof.Proof.BodyValue
import Idealize.ShloMosaic.Lib.Pipeline.Value
import Idealize.ShloMosaic.Lib.StableHlo.Run
import Idealize.ShloMosaic.Lib.Tactic

noncomputable section

namespace Cert.KernelIdeal.AdjValue

open Cert.KernelIdeal Cert.KernelIdeal.Gen Cert.KernelIdeal.Value Cert.Adjacency
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block index of each window at each of the 64 points, decided: the node rows and the result slab move with the
    point along their first axis; the weight and the bias stay at block zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The graph a grid point works on. -/
def graphOf (t : Fin cfg0.N) : Fin 64 := ⟨t.val, by have h := t.isLt; have e : cfg0.N = 64 := N_0; omega⟩

theorem graphOf_val (t : Fin cfg0.N) : (graphOf t).val = t.val := rfl

/-! ## The three input blocks at a point -/

/-- The node block at point `t` is rows `1024·t + p` of the node array. -/
theorem rows_apply (c : Dev nD) (t : Fin cfg0.N) (p : Fin 1024) (k : Fin 256) :
    (iblk m c 0 t : Vec Ideal S1024x256 .f32) (ix2 p k)
      = (m ((c : Thread nD τ).loc main_arg0) : S65536x256.Idx → EReal) (ix2 (node (graphOf t) p) k) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The weight block at every point is the weight. -/
theorem weight_apply (c : Dev nD) (t : Fin cfg0.N) (h : Fin 128) (k : Fin 256) :
    (iblk m c 1 t : Vec Ideal S128x256 .f32) (ix2 h k)
      = (m ((c : Thread nD τ).loc main_arg1) : S128x256.Idx → EReal) (ix2 h k) := by
  obtain ⟨-, -, e0, e1, -⟩ := index_facts t
  unfold iblk
  rw [View.read_apply]
  show V m c main_arg1 _ = _
  rw [V_main_arg1]
  congr 1
  funext a
  apply Fin.ext
  match a with
  | ⟨0, _⟩ => show win0_1.index t (0 : Fin 2) * 128 + 1 * h.val = h.val; rw [e0]; omega
  | ⟨1, _⟩ => show win0_1.index t (1 : Fin 2) * 256 + 1 * k.val = k.val; rw [e1]; omega

/-- The bias row as the region finds it: the host's reshape of the bias to 1 × 128, done before the call. -/
theorem bias_row (c : Dev nD) :
    (V m c main_v0 : S1x128.Idx → EReal) = shapeCast S1x128 (m ((c : Thread nD τ).loc main_arg2) : S128.Idx → EReal) shapeCasts_S128_S1x128 := by
  dsimp only [Gen.V, Gen.hostOps0]
  after_results
  rfl

/-- The bias block at every point reads the bias. -/
theorem biasrow_apply (c : Dev nD) (t : Fin cfg0.N) (h : Fin 128) :
    (iblk m c 2 t : Vec Ideal S1x128 .f32) (ix2 (0 : Fin 1) h)
      = (m ((c : Thread nD τ).loc main_arg2) : S128.Idx → EReal) (ix1 h) := by
  obtain ⟨-, -, -, -, e0, e1, -⟩ := index_facts t
  have hh := h.isLt
  unfold iblk
  rw [View.read_apply]
  show V m c main_v0 _ = _
  rw [bias_row]
  refine shapeCast_apply _ shapeCasts_S128_S1x128 _ (ix1 h) ?_
  rw [Shape.rowMajor_val_one, Shape.rowMajor_val_two]
  show h.val = (win0_2.index t (0 : Fin 2) * 1 + 1 * 0) * 128 + (win0_2.index t (1 : Fin 2) * 128 + 1 * h.val)
  rw [e0, e1]; omega

/-! ## What a point writes back -/

/-- The body's store of blocks that read as graph `g`'s data, at a block index `y`, is `adj` at the array index with
    first coordinate `g` and `y`'s two node coordinates. -/
theorem store_eq_adj (Z : FVec Ideal S65536x256 .f32) (W : FVec Ideal S128x256 .f32) (b : FVec Ideal S128 .f32)
    (X : Vec Ideal S1024x256 .f32) (W' : Vec Ideal S128x256 .f32) (B : Vec Ideal S1x128 .f32) (g : Fin 64)
    (hX : ∀ (p : Fin 1024) (k : Fin 256), X (ix2 p k) = Z (ix2 (node g p) k))
    (hW : ∀ (h : Fin 128) (k : Fin 256), W' (ix2 h k) = W (ix2 h k))
    (hB : ∀ h : Fin 128, B (ix2 (0 : Fin 1) h) = b (ix1 h))
    (y : S1x1024x1024.Idx) (i : S64x1024x1024.Idx)
    (h0 : (i 0).val = g.val) (h1 : (i 1).val = (y 1).val) (h2 : (i 2).val = (y 2).val) :
    k0_pay1 (F := Ideal) X W' B y = adj Z W b i := by
  obtain ⟨a, p, q, rfl⟩ : ∃ (a : Fin 1) (p q : Fin 1024), y = ix3 a p q := ⟨y 0, y 1, y 2, eq_ix3 y⟩
  obtain rfl : a = 0 := Fin.ext (by have := a.isLt; omega)
  obtain rfl : i = ix3 g p q := funext fun d => Fin.ext (by
    match d with
    | ⟨0, _⟩ => exact h0
    | ⟨1, _⟩ => exact h1
    | ⟨2, _⟩ => exact h2)
  rw [payload_apply]
  exact adjBlock_eq Z W b X W' B g hX hW hB p q

/-- WHAT POINT `t` WRITES BACK is slab `t` of `adj` of the argument arrays. -/
theorem flushed_eq (c : Dev nD) (t : Fin cfg0.N) :
    (dats m 0 c).flushed 3 t = ((cfg0.win 3).blk t).view.read (Elt Ideal)
      (adj (m ((c : Thread nD τ).loc main_arg0)) (m ((c : Thread nD τ).loc main_arg1)) (m ((c : Thread nD τ).loc main_arg2))) := by
  rw [Value.flushed3]
  unfold out0_3
  rw [View.canon_unit_zero zeros3]
  simp only [View.ld_unit_zero (S := S1024x256) zeros2, View.ld_unit_zero (S := S128x256) zeros2, View.ld_unit_zero (S := S1x128) zeros2]
  obtain ⟨-, -, -, -, -, -, e0, e1, e2⟩ := index_facts t
  funext y
  show k0_pay1 (F := Ideal) (iblk m c 0 t) (iblk m c 1 t) (iblk m c 2 t) y
    = adj (m ((c : Thread nD τ).loc main_arg0)) (m ((c : Thread nD τ).loc main_arg1)) (m ((c : Thread nD τ).loc main_arg2))
        (((cfg0.win 3).blk t).view.emb y)
  refine store_eq_adj (m ((c : Thread nD τ).loc main_arg0)) (m ((c : Thread nD τ).loc main_arg1)) (m ((c : Thread nD τ).loc main_arg2))
    (iblk m c 0 t) (iblk m c 1 t) (iblk m c 2 t) (graphOf t) (rows_apply m c t) (weight_apply m c t) (biasrow_apply m c t)
    y (((cfg0.win 3).blk t).view.emb y) ?_ ?_ ?_
  · have hy : (y 0).val < 1 := (y 0).isLt
    show win0_3.index t (0 : Fin 3) * 1 + 1 * (y 0).val = t.val
    rw [e0]; omega
  · show win0_3.index t (1 : Fin 3) * 1024 + 1 * (y 1).val = (y 1).val
    rw [e1]; omega
  · show win0_3.index t (2 : Fin 3) * 1024 + 1 * (y 2).val = (y 2).val
    rw [e2]; omega

/-! ## The slabs tile the result -/

/-- An index of the result array is in point `t`'s slab iff each coordinate is in the slab's range on its axis. -/
theorem mem_slab (t : Fin cfg0.N) (i : S64x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Every index `(g, n, n')` is in the slab of point `g`, which is written back. -/
theorem covered (i : S64x1024x1024.Idx) :
    ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 1024 := (i 2).isLt
  have hN : cfg0.N = 64 := N_0
  obtain ⟨t, ht⟩ : ∃ t : Fin cfg0.N, t.val = (i 0).val := ⟨⟨(i 0).val, by omega⟩, rfl⟩
  obtain ⟨-, -, -, -, -, -, e0, e1, e2⟩ := index_facts t
  refine ⟨t, flush0_3 t, ?_⟩
  rw [mem_slab]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1024 ≤ (i 1).val ∧ (i 1).val < win0_3.index t (1 : Fin 3) * 1024 + 1024
    rw [e1]; omega
  | ⟨2, _⟩ =>
    show win0_3.index t (2 : Fin 3) * 1024 ≤ (i 2).val ∧ (i 2).val < win0_3.index t (2 : Fin 3) * 1024 + 1024
    rw [e2]; omega

/-- THE RESULT ARRAY after the run is `adj` of the argument arrays. -/
theorem final (c : Dev nD) :
    (dats m 0 c).arrAt 3 cfg0.N
      = adj (m ((c : Thread nD τ).loc main_arg0)) (m ((c : Thread nD τ).loc main_arg1)) (m ((c : Thread nD τ).loc main_arg2)) :=
  (dats m 0 c).arrAt_eq_of_cover 3 _ (fun t _ => flushed_eq m c t) covered

/-! ## The run, read -/

/-- Every weakly fair execution of the idealized kernel terminates with the result array at `adj` of the arguments and
    the arguments unchanged. -/
theorem run : θ_run defs (onTc (τ := τ) (main (F := Ideal))) ⟨m, fun _ => 0, ρ⟩ fun r => ∀ c : Dev nD,
      r.2.mem ((c : Thread nD τ).loc main_v1)
        = adj (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AdjValue

end
-- ==== Proof.lean ====
/-
  The kernel and its reference compute the same adjacency scores on the extended reals.

  For 64 graphs of 1024 nodes (a 65536 × 256 node array `Z`), a 128 × 256 weight `W` and a bias `b`, both programs
  return, for graph `g` and its nodes `n`, `n'`,
      logistic (∑ h < 128, hidden(1024·g + n, h) · hidden(1024·g + n', h)),   hidden(r, h) = (∑ k < 256, Z[r, k] · W[h, k]) + b[h]
  (`Cert.Adjacency.adj`). The kernel does it one graph per grid point, as two matrix products into zero accumulators
  with the bias added in between and the logistic function applied to the second product; its narrowings to bf16 are
  the identity on the extended reals. The reference does it for all graphs at once: a product with the transposed
  weight, the bias broadcast, a regrouping of rows into graphs, a batched product of each slab with itself, and the
  logistic function spelt as `1 / (1 + e^(-x))`, which is the logistic function's definition. Both form the sums in the
  same grouping, so the two sides meet by re-indexing alone: no law of arithmetic that could fail at an infinity is
  used, and the precondition (finite inputs) is never opened.

  The three frames are the generated ones (the reference's is its generated run with the result dropped). No operation
  of the kernel was rewritten when it was read on the extended reals, so that conjunct is trivial.
-/
import proofs.«139481_j34978213659346_1_alg».proof.Defs
import proofs.«139481_j34978213659346_1_alg».proof.Proof.Gen.Kernel
import proofs.«139481_j34978213659346_1_alg».proof.Proof.Gen.Kernel.Skeleton
import proofs.«139481_j34978213659346_1_alg».proof.Proof.Gen.Kernel.Launch
import proofs.«139481_j34978213659346_1_alg».proof.Proof.Gen.Kernel.Points
import proofs.«139481_j34978213659346_1_alg».proof.Proof.Gen.Kernel.Frame
import proofs.«139481_j34978213659346_1_alg».proof.Proof.Gen.KernelIdeal
import proofs.«139481_j34978213659346_1_alg».proof.Proof.Gen.KernelIdeal.Skeleton
import proofs.«139481_j34978213659346_1_alg».proof.Proof.Gen.KernelIdeal.Launch
import proofs.«139481_j34978213659346_1_alg».proof.Proof.Gen.KernelIdeal.Points
import proofs.«139481_j34978213659346_1_alg».proof.Proof.Gen.KernelIdeal.Frame
import proofs.«139481_j34978213659346_1_alg».proof.Proof.Gen.KernelIdeal.Value
import proofs.«139481_j34978213659346_1_alg».proof.Proof.Gen.ReferenceIdeal
import proofs.«139481_j34978213659346_1_alg».proof.Proof.Gen.ReferenceIdeal.Run
import proofs.«139481_j34978213659346_1_alg».proof.Proof.Gen.ReferenceIdeal.Read
import proofs.«139481_j34978213659346_1_alg».proof.Proof.Gen.Pre_finite_inputs
import proofs.«139481_j34978213659346_1_alg».proof.Proof.Adjacency
import proofs.«139481_j34978213659346_1_alg».proof.Proof.ReferenceAdjacency
import proofs.«139481_j34978213659346_1_alg».proof.Proof.BodyValue
import proofs.«139481_j34978213659346_1_alg».proof.Proof.KernelAdjacency
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the arguments the kernel's result array ends at `adj` of its arguments and the
    reference's at `adj` of its own: the same array. -/
theorem algebraic : Cert.algebraic_KernelIdeal_ReferenceIdeal := by
  intro m ρ m' ρ' _ hagree
  refine ⟨fun c => Cert.Adjacency.adj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AdjValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.AdjValue.result_eq,
    (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
